-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x2048 : Shape := ⟨2, ![1024, 2048]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S1024x2048 .f32) (main_arg3 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16384x1024 : Shape := ⟨2, ![16384, 1024]⟩
abbrev S1024x2048 : Shape := ⟨2, ![1024, 2048]⟩
abbrev S1024 : Shape := ⟨1, ![1024]⟩
abbrev S1024x1024 : Shape := ⟨2, ![1024, 1024]⟩
abbrev S1x1024 : Shape := ⟨2, ![1, 1024]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x2048, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S1024x2048_S1024x1024_0_0 : S1024x2048.Slices ![0, 0] S1024x1024
  slices_S1024x2048_S1024x1024_0_1024 : S1024x2048.Slices ![0, 1024] S1024x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x1024.size a
  hwx0_5 : ∀ i : grid0.Coords, EltTy.bits .f32 = 32 ∨ (Rect.block (s := S16384x1024) S1024x1024.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x2048 : Shape := ⟨2, ![1024, 2048]⟩
abbrev S1024 : Shape := ⟨1, ![1024]⟩
abbrev S16384x2048 : Shape := ⟨2, ![16384, 2048]⟩
abbrev S2048x1024 : Shape := ⟨2, ![2048, 1024]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x2048, .f32⟩
  | .hbm, ⟨3, _⟩ => ⟨S1024, .f32⟩
  | .hbm, ⟨4, _⟩ => ⟨S16384x2048, .f32⟩
  | .hbm, ⟨5, _⟩ => ⟨S2048x1024, .f32⟩
  | .hbm, ⟨6, _⟩ => ⟨S16384x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  transposes_S1024x2048_S2048x1024_1_0 : S1024x2048.Transposes [1, 0] S2048x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x2048_S2048x1024_S16384x1024_1_0_0_1_n_n_wf : DotDims.WF S16384x2048 S2048x1024 S16384x1024 [1] [0] [0] [1] [] []

variable [Facts₀]

def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf

class Facts : Prop extends Facts₀ where

variable [Facts]
-- ==== Proof.CellSpec.lean ====
/-
  The function both programs compute, stated once with no program in sight.

  Inputs: two activation arrays `x, h : [16384, 1024]`, one weight array `W : [1024, 2048]` and a bias `b : [1024]`, all
  extended reals. Row `q` of `W` is split in two halves of 1024 columns: the first half multiplies `x`, the second `h`.
  The result at `(r, q)` is

      tanh ( (∑ k < 1024, x[r,k] · W[q,k])  +  (∑ k < 1024, h[r,k] · W[q,1024+k])  +  b[q] ).

  One of the two programs forms the two sums separately; the other joins `x` and `h` into one row of 2048 entries and takes a
  single sum over all 2048 columns of `W`'s row. The one law between the two is that a sum over `Fin 2048` is the sum over
  its lower 1024 indices plus the sum over its upper 1024 indices — true in every commutative additive monoid, so it needs
  nothing about finiteness of the summands.
-/
import Idealize.ShloMosaic.PureOps.Ideal
import Idealize.ShloMosaic.Lib.ValueIdx

noncomputable section

open scoped BigOperators

namespace Cert.CellSpec

open Idealize.ShloMosaic Idealize.ShloMosaic.ValueIdx

/-- Column `k` of the first half of a weight row. -/
abbrev lowCol (k : Fin 1024) : Fin 2048 := ⟨k.val, by have := k.isLt; omega⟩
/-- Column `k` of the second half of a weight row: column `1024 + k` of the whole row. -/
abbrev highCol (k : Fin 1024) : Fin 2048 := ⟨1024 + k.val, by have := k.isLt; omega⟩

/-- A sum over 2048 indices is the sum over the lower half plus the sum over the upper half. -/
theorem sum_halves {M : Type*} [AddCommMonoid M] (f : Fin 2048 → M) :
    ∑ k : Fin 2048, f k = (∑ k : Fin 1024, f (lowCol k)) + ∑ k : Fin 1024, f (highCol k) := by
  have e := Fin.sum_univ_add (a := 1024) (b := 1024) (f : Fin (1024 + 1024) → M)
  refine e.trans ?_
  have e1 : ∀ k : Fin 1024, Fin.castAdd 1024 k = lowCol k := fun k => Fin.ext rfl
  have e2 : ∀ k : Fin 1024, Fin.natAdd 1024 k = highCol k := fun k => Fin.ext rfl
  simp only [e1, e2]

/-- The argument of `tanh` at row `r`, output column `q`: the two half-row products and the bias. -/
def preact (x h : (⟨2, ![16384, 1024]⟩ : Shape).Idx → EReal) (W : (⟨2, ![1024, 2048]⟩ : Shape).Idx → EReal)
    (b : (⟨1, ![1024]⟩ : Shape).Idx → EReal) (r : Fin 16384) (q : Fin 1024) : EReal :=
  ((∑ k : Fin 1024, x (ix2 r k) * W (ix2 q (lowCol k))) + (∑ k : Fin 1024, h (ix2 r k) * W (ix2 q (highCol k)))) + b (ix1 q)

/-- The whole result array. -/
def cell (x h : (⟨2, ![16384, 1024]⟩ : Shape).Idx → EReal) (W : (⟨2, ![1024, 2048]⟩ : Shape).Idx → EReal)
    (b : (⟨1, ![1024]⟩ : Shape).Idx → EReal) : (⟨2, ![16384, 1024]⟩ : Shape).Idx → EReal :=
  fun i => Ideal.tanh (preact x h W b (i 0) (i 1))

/-- The result at an index given by its coordinates. -/
theorem cell_ix2 (x h : (⟨2, ![16384, 1024]⟩ : Shape).Idx → EReal) (W : (⟨2, ![1024, 2048]⟩ : Shape).Idx → EReal)
    (b : (⟨1, ![1024]⟩ : Shape).Idx → EReal) (r : Fin 16384) (q : Fin 1024) :
    cell x h W b (ix2 r q) = Ideal.tanh (preact x h W b r q) := rfl

end Cert.CellSpec

end
-- ==== Proof.RefIsCell.lean ====
/-
  The reference program's result is the cell function.

  The reference joins `x` and `h` along the column axis into one array of 2048 columns, transposes `W`, contracts the two
  over the 2048 columns, adds the bias broadcast over the rows, and applies `tanh`. Read at an index `(r, q)`:
  the joined array at column `k < 1024` is `x[r,k]` and at column `1024 + k` is `h[r,k]`; the transposed weight at
  `(k, q)` is `W[q,k]`; the broadcast bias at `(r, q)` is `b[q]`. The one sum over 2048 columns is split into its two halves,
  which are the two sums of the cell function.
-/
import proofs.«125307_j27049704030527_2_alg».proof.Proof.Gen.ReferenceIdeal.Read
import proofs.«125307_j27049704030527_2_alg».proof.Proof.CellSpec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.CellSpec

/-- The joined array at a column of its first half is `x` at that column. -/
theorem joined_low (x h : S16384x1024.Idx → EReal) (r : Fin 16384) (k : Fin 1024) :
    val_main_v0 (F := Ideal) x h (ix2 r (lowCol k)) = x (ix2 r k) := by
  unfold val_main_v0
  exact concatenate_pair_apply_left (1 : Fin S16384x2048.rank) x h concatenates_S16384x1024_S16384x1024_S16384x2048_d1
    (ix2 r (lowCol k)) rfl (ix2 r k) (fun b => match b with
      | ⟨0, _⟩ => rfl
      | ⟨1, _⟩ => rfl)

/-- The joined array at column `1024 + k` is `h` at column `k`. -/
theorem joined_high (x h : S16384x1024.Idx → EReal) (r : Fin 16384) (k : Fin 1024) :
    val_main_v0 (F := Ideal) x h (ix2 r (highCol k)) = h (ix2 r k) := by
  unfold val_main_v0
  exact concatenate_pair_apply_right (1 : Fin S16384x2048.rank) x h concatenates_S16384x1024_S16384x1024_S16384x2048_d1
    (ix2 r (highCol k)) rfl rfl (ix2 r k) (fun b => match b with
      | ⟨0, _⟩ => fun _ => rfl
      | ⟨1, _⟩ => fun hne => absurd rfl hne)
    (by show k.val + 1024 = 1024 + k.val; omega)

/-- The left operand's index of the contraction at output `(r, q)`, column `k`. -/
theorem left_index (r : Fin 16384) (q : Fin 1024) (k : Fin 2048) : lidx_main_v2 (ix2 r q) k = ix2 r k :=
  funext fun a => match a with
    | ⟨0, _⟩ => rfl
    | ⟨1, _⟩ => rfl

/-- The weight's index under the transpose at output `(r, q)`, column `k`: row `q`, column `k`. -/
theorem weight_index (r : Fin 16384) (q : Fin 1024) (k : Fin 2048) :
    idx_main_v1 (ridx_main_v2 (ix2 r q) k) = ix2 q k :=
  funext fun a => match a with
    | ⟨0, _⟩ => rfl
    | ⟨1, _⟩ => rfl

/-- The bias's index under the two broadcasts at output `(r, q)`: entry `q`. -/
theorem bias_index (r : Fin 16384) (q : Fin 1024) : idx_main_v3 (idx_main_v4 (ix2 r q)) = ix1 q :=
  funext fun a => match a with
    | ⟨0, _⟩ => rfl

/-- The reference's last stage is the cell function of its four arguments. -/
theorem ref_eq_cell (x h : S16384x1024.Idx → EReal) (W : S1024x2048.Idx → EReal) (b : S1024.Idx → EReal) :
    val_main_v6 (F := Ideal) x h W b = cell x h W b := by
  funext i
  obtain ⟨r, q, rfl⟩ : ∃ (r : Fin 16384) (q : Fin 1024), i = ix2 r q := ⟨i 0, i 1, eq_ix2 i⟩
  rw [cell_ix2, val_main_v6_apply, val_main_v5_apply, val_main_v2_apply, val_main_v4_apply, val_main_v3_apply,
    sum_halves]
  simp only [val_main_v1_apply, left_index, weight_index, bias_index, joined_low, joined_high,
    Ideal.hostUnary_tanh_def, Ideal.addf_def]
  rfl

end Cert.ReferenceIdeal.RefValue

end
-- ==== Proof.BodyValue.lean ====
/-
  What the kernel body stores, read at one entry of its block.

  At a grid point the body holds a 1024-row block of `x`, a 1024-row block of `h`, the two 1024 × 1024 weight halves
  already transposed (entry `(k, q)` of a half is the weight of input column `k` for output column `q`) and the bias as one
  row. It multiplies each activation block with its weight half into a zero accumulator, adds the two products, adds the
  bias row to every row, and applies `tanh`. So the stored block at `(p, q)` is

      tanh ( (∑ k, xblk[p,k] · wx[k,q]) + (∑ k, hblk[p,k] · wh[k,q]) + brow[0,q] ).

  The narrowing of the activations to a shorter float format before the products is the identity on extended reals.
-/
import proofs.«125307_j27049704030527_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Gen
open Idealize.ShloMosaic Idealize.ShloMosaic.ValueIdx

/-- The body's one contraction record: left axis 1 against right axis 0, no batch axes. -/
abbrev blockDot : DotDims S1024x1024 S1024x1024 S1024x1024 := dot_S1024x1024_S1024x1024_S1024x1024_1_0_0_1_n_n

/-- The left operand's row under the contraction is the output's row. -/
theorem left_row (j : S1024x1024.Idx) (c : blockDot.contr.Idx) : (blockDot.lhsIdx j c 0).val = (j 0).val := by
  unfold DotDims.lhsIdx
  rw [dif_neg (show ¬(0 : Fin S1024x1024.rank) ∈ blockDot.lhsBatch by decide),
    dif_pos (show (0 : Fin S1024x1024.rank) ∈ blockDot.lhsNonContracting by decide)]
  rfl

/-- The right operand's column under the contraction is the output's column. -/
theorem right_col (j : S1024x1024.Idx) (c : blockDot.contr.Idx) : (blockDot.rhsIdx j c 1).val = (j 1).val := by
  unfold DotDims.rhsIdx
  rw [dif_neg (show ¬(1 : Fin S1024x1024.rank) ∈ blockDot.rhsBatch by decide),
    dif_pos (show (1 : Fin S1024x1024.rank) ∈ blockDot.rhsNonContracting by decide)]
  rfl

/-- A product of two 1024 × 1024 blocks into a zero accumulator, at `(p, q)`: row `p` of the left against column `q` of
    the right. -/
theorem block_product {φ₁ φ₂ : FTy} (L : FVec Ideal S1024x1024 φ₁) (R : FVec Ideal S1024x1024 φ₂) (p q : Fin 1024) :
    matmul blockDot none L R (constant (F := Ideal) S1024x1024 .f32 0x00000000#32) (ix2 p q)
      = ∑ k : Fin 1024, L (ix2 p k) * R (ix2 k q) := by
  refine (Ideal.matmul_constant_zero_apply blockDot none L R (ix2 p q)).trans ?_
  rw [← Equiv.sum_comp (contrEquiv1 blockDot 1024 rfl rfl).symm]
  refine Finset.sum_congr rfl fun k _ => ?_
  have hk := contrEquiv1_symm_val blockDot 1024 rfl rfl k
  have el : blockDot.lhsIdx (ix2 p q) ((contrEquiv1 blockDot 1024 rfl rfl).symm k) = ix2 p k :=
    funext fun a => Fin.ext (by
      match a with
      | ⟨0, _⟩ => exact left_row _ _
      | ⟨1, _⟩ => exact (blockDot.lhsIdx_val_of_single rfl _ _).trans hk)
  have er : blockDot.rhsIdx (ix2 p q) ((contrEquiv1 blockDot 1024 rfl rfl).symm k) = ix2 k q :=
    funext fun a => Fin.ext (by
      match a with
      | ⟨0, _⟩ => exact (blockDot.rhsIdx_val_of_single rfl _ _).trans hk
      | ⟨1, _⟩ => exact right_col _ _)
  rw [el, er]

/-- THE STORED BLOCK AT AN ENTRY: the two block products, the bias row's entry, `tanh`. -/
theorem stored_at (xb hb : Vec Ideal S1024x1024 .f32) (wx wh : Vec Ideal S1024x1024 .bf16) (brow : Vec Ideal S1x1024 .f32)
    (p q : Fin 1024) :
    k0_pay1 (F := Ideal) xb hb wx wh brow (ix2 p q)
      = Ideal.tanh (((∑ k : Fin 1024, xb (ix2 p k) * wx (ix2 k q)) + (∑ k : Fin 1024, hb (ix2 p k) * wh (ix2 k q)))
          + brow (ix2 (0 : Fin 1) q)) := by
  unfold k0_pay1
  show Ideal.tanh ((matmul (F := Ideal) blockDot none _ _ _ (ix2 p q) + matmul (F := Ideal) blockDot none _ _ _ (ix2 p q))
    + broadcastTo S1024x1024 _ _ (ix2 p q)) = _
  rw [block_product, block_product, shapeCast_self, shapeCast_self, shapeCast_self, broadcastTo_1b_ab_apply]
  rfl

end Cert.KernelIdeal.BodyValue

end
-- ==== Proof.Staged.lean ====
/-
  The arrays the kernel's region finds when it is entered.

  Before the region the program cuts the weight array `W : [1024, 2048]` into its two column halves, transposes each and
  narrows it to a shorter float format (the identity on extended reals), and casts the bias `b : [1024]` to one row
  `[1, 1024]`. Read at an index:
    * the first staged weight at `(k, q)` is `W[q, k]`;
    * the second staged weight at `(k, q)` is `W[q, 1024 + k]`;
    * the staged bias row at `(0, q)` is `b[q]`.
-/
import proofs.«125307_j27049704030527_2_alg».proof.Proof.Gen.KernelIdeal.Frame
import proofs.«125307_j27049704030527_2_alg».proof.Proof.CellSpec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Staged

open Cert.KernelIdeal Cert.KernelIdeal.Gen
open Idealize.ShloMosaic Idealize.ShloMosaic.TcCoe Idealize.ShloMosaic.StableHlo Idealize.SL.Sem
open Idealize.ShloMosaic.ValueIdx Cert.CellSpec

variable (m : (ℓ : Loc nD τ sig) → Buf (Elt Ideal) ℓ)

/-- The first staged weight is the first column half of `W`, transposed. -/
theorem first_weight (c : Dev nD) :
    (V m c main_v3 : S1024x1024.Idx → EReal)
      = truncf (F := Ideal) .bf16 (transpose S1024x1024 [1, 0]
          (extractStridedSlice S1024x1024 ![0, 0] (m ((c : Thread nD τ).loc main_arg2) : S1024x2048.Idx → EReal) slices_S1024x2048_S1024x1024_0_0)
          transposes_S1024x1024_S1024x1024_1_0) bitsLt_bf16_f32 := by
  dsimp only [Gen.V, Gen.hostOps0]; after_results

/-- The second staged weight is the second column half of `W`, transposed. -/
theorem second_weight (c : Dev nD) :
    (V m c main_v5 : S1024x1024.Idx → EReal)
      = truncf (F := Ideal) .bf16 (transpose S1024x1024 [1, 0]
          (extractStridedSlice S1024x1024 ![0, 1024] (m ((c : Thread nD τ).loc main_arg2) : S1024x2048.Idx → EReal) slices_S1024x2048_S1024x1024_0_1024)
          transposes_S1024x1024_S1024x1024_1_0) bitsLt_bf16_f32 := by
  dsimp only [Gen.V, Gen.hostOps0]; after_results

/-- The staged bias is `b` cast to one row. -/
theorem bias_row (c : Dev nD) :
    (V m c main_v6 : S1x1024.Idx → EReal)
      = shapeCast S1x1024 (m ((c : Thread nD τ).loc main_arg3) : S1024.Idx → EReal) shapeCasts_S1024_S1x1024 := by
  dsimp only [Gen.V, Gen.hostOps0]; after_results; rfl

/-- The first staged weight at `(k, q)` is `W[q, k]`. -/
theorem first_weight_at (c : Dev nD) (k q : Fin 1024) :
    (V m c main_v3 : S1024x1024.Idx → EReal) (ix2 k q) = (m ((c : Thread nD τ).loc main_arg2) : S1024x2048.Idx → EReal) (ix2 q (lowCol k)) := by
  rw [first_weight, truncf_apply, transpose_ix2_apply,
    slice2_axis1_apply 0 _ slices_S1024x2048_S1024x1024_0_0 q k (lowCol k) (Nat.zero_add _).symm]

/-- The second staged weight at `(k, q)` is `W[q, 1024 + k]`. -/
theorem second_weight_at (c : Dev nD) (k q : Fin 1024) :
    (V m c main_v5 : S1024x1024.Idx → EReal) (ix2 k q) = (m ((c : Thread nD τ).loc main_arg2) : S1024x2048.Idx → EReal) (ix2 q (highCol k)) := by
  rw [second_weight, truncf_apply, transpose_ix2_apply,
    slice2_axis1_apply 1024 _ slices_S1024x2048_S1024x1024_0_1024 q k (highCol k) rfl]

/-- The staged bias row at `(0, q)` is `b[q]`. -/
theorem bias_row_at (c : Dev nD) (q : Fin 1024) :
    (V m c main_v6 : S1x1024.Idx → EReal) (ix2 (0 : Fin 1) q) = (m ((c : Thread nD τ).loc main_arg3) : S1024.Idx → EReal) (ix1 q) := by
  rw [bias_row, shapeCast_a_1a_apply]

end Cert.KernelIdeal.Staged

end
-- ==== Proof.ArrayValue.lean ====
/-
  From the blocks the grid points write to the whole result array.

  The grid has 16 points. At point `t` the kernel reads rows `1024·t … 1024·t + 1023` of `x` and of `h`, the two staged
  weights and the staged bias row whole (their one block, at every point), and writes rows `1024·t … 1024·t + 1023` of the
  result. With the staged arrays read back to `W` and `b`, the block a point writes is the same rows of the cell function
  of the four argument arrays; the 16 blocks tile the 16384 rows (row `r` lies in the block of point `r / 1024`), so the
  result array ends as the cell function everywhere.
-/
import proofs.«125307_j27049704030527_2_alg».proof.Proof.Gen.KernelIdeal.Value
import proofs.«125307_j27049704030527_2_alg».proof.Proof.CellSpec
import proofs.«125307_j27049704030527_2_alg».proof.Proof.BodyValue
import proofs.«125307_j27049704030527_2_alg».proof.Proof.Staged

noncomputable section

open scoped BigOperators

namespace Cert.KernelIdeal.ArrayValue

open Cert.KernelIdeal Cert.KernelIdeal.Gen Cert.KernelIdeal.BodyValue Cert.KernelIdeal.Staged
open Idealize.ShloMosaic Idealize.ShloMosaic.TcCoe Idealize.SL.Sem
open Idealize.ShloMosaic.Pipeline (Dat)
open Idealize.ShloMosaic.ValueIdx Cert.CellSpec

variable (m : (ℓ : Loc nD τ sig) → Buf (Elt Ideal) ℓ) (ρ : Dev nD → PrngReg)

/-- The four argument arrays on device `c`, as launched. -/
abbrev argX (c : Dev nD) : S16384x1024.Idx → EReal := m ((c : Thread nD τ).loc main_arg0)
abbrev argH (c : Dev nD) : S16384x1024.Idx → EReal := m ((c : Thread nD τ).loc main_arg1)
abbrev argW (c : Dev nD) : S1024x2048.Idx → EReal := m ((c : Thread nD τ).loc main_arg2)
abbrev argB (c : Dev nD) : S1024.Idx → EReal := m ((c : Thread nD τ).loc main_arg3)

theorem zero_offsets : (![0, 0] : Fin 2 → Nat) = fun _ => 0 := funext fun a => by fin_cases a <;> rfl

/-- The printed index maps, decided over the 16 grid points: the two activation windows and the result window sit at the
    same row block and column block 0; the weights and the bias sit at block (0, 0); the row block is at most 15. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 15 :=
  (by decide +kernel : ∀ t : Fin grid0.N, _)

/-- Every row block is some point's. -/
theorem index_onto : ∀ q0 : Fin 16, ∃ t : Fin cfg0.N, win0_5.index t (0 : Fin 2) = q0.val :=
  (by decide +kernel : ∀ q0 : Fin 16, ∃ t : Fin grid0.N, win0_5.index t (0 : Fin 2) = q0.val)

/-- A stored block whose inputs are: rows `1024·r0 …` of `X` and `H`, the two transposed column halves of `Wt`, and `B`
    as a row — is the same rows of the cell function. -/
theorem stored_is_cell (xb hb : Vec Ideal S1024x1024 .f32) (wx wh : Vec Ideal S1024x1024 .bf16) (brow : Vec Ideal S1x1024 .f32)
    (X H : S16384x1024.Idx → EReal) (Wt : S1024x2048.Idx → EReal) (B : S1024.Idx → EReal)
    (rowOf : Fin 1024 → Fin 16384)
    (hx : ∀ (p k : Fin 1024), xb (ix2 p k) = X (ix2 (rowOf p) k))
    (hh : ∀ (p k : Fin 1024), hb (ix2 p k) = H (ix2 (rowOf p) k))
    (hwx : ∀ (k q : Fin 1024), wx (ix2 k q) = Wt (ix2 q (lowCol k)))
    (hwh : ∀ (k q : Fin 1024), wh (ix2 k q) = Wt (ix2 q (highCol k)))
    (hbias : ∀ q : Fin 1024, brow (ix2 (0 : Fin 1) q) = B (ix1 q))
    (p q : Fin 1024) :
    k0_pay1 (F := Ideal) xb hb wx wh brow (ix2 p q) = cell X H Wt B (ix2 (rowOf p) q) := by
  rw [stored_at, cell_ix2]
  unfold preact
  simp only [hx, hh, hwx, hwh, hbias]

/-- The result window's row block at any point is at most 15. -/
theorem row_block_le (t : Fin cfg0.N) : win0_5.index t (0 : Fin 2) ≤ 15 := (index_facts t).2.2.2.2.2.2.2.2.2.2.2

/-- The array row under local row `p` of point `t`'s block: `1024 · (row block) + p`. -/
def rowAt (t : Fin cfg0.N) (p : Fin 1024) : Fin 16384 :=
  ⟨win0_5.index t (0 : Fin 2) * 1024 + p.val, by have := row_block_le t; have := p.isLt; omega⟩

/-! ## Each input window's block at a point, read where the result block's rows say -/

/-- Point `t`'s block of `x` at `(p, k)` is `x` at the array row under `p`, column `k`. -/
theorem x_block (c : Dev nD) (t : Fin cfg0.N) (p k : Fin 1024) :
    iblk m c 0 t (ix2 p k) = argX m c (ix2 (rowAt t p) k) := by
  obtain ⟨e0, e1, -⟩ := index_facts t
  show V m c main_arg0 (((cfg0.win 0).blk t).view.emb (ix2 p k)) = _
  rw [V_main_arg0]
  refine congrArg (argX m c) (funext fun a => Fin.ext ?_)
  match a with
  | ⟨0, _⟩ => show win0_0.index t (0 : Fin 2) * 1024 + 1 * p.val = win0_5.index t (0 : Fin 2) * 1024 + p.val; omega
  | ⟨1, _⟩ => show win0_0.index t (1 : Fin 2) * 1024 + 1 * k.val = k.val; omega

/-- Point `t`'s block of `h` at `(p, k)` is `h` at the array row under `p`, column `k`. -/
theorem h_block (c : Dev nD) (t : Fin cfg0.N) (p k : Fin 1024) :
    iblk m c 1 t (ix2 p k) = argH m c (ix2 (rowAt t p) k) := by
  obtain ⟨-, -, e0, e1, -⟩ := index_facts t
  show V m c main_arg1 (((cfg0.win 1).blk t).view.emb (ix2 p k)) = _
  rw [V_main_arg1]
  refine congrArg (argH m c) (funext fun a => Fin.ext ?_)
  match a with
  | ⟨0, _⟩ => show win0_1.index t (0 : Fin 2) * 1024 + 1 * p.val = win0_5.index t (0 : Fin 2) * 1024 + p.val; omega
  | ⟨1, _⟩ => show win0_1.index t (1 : Fin 2) * 1024 + 1 * k.val = k.val; omega

/-- The first staged weight's one block at `(k, q)` is `W[q, k]`. -/
theorem wx_block (c : Dev nD) (t : Fin cfg0.N) (k q : Fin 1024) :
    iblk m c 2 t (ix2 k q) = argW m c (ix2 q (lowCol k)) := by
  obtain ⟨-, -, -, -, e0, e1, -⟩ := index_facts t
  show V m c main_v3 (((cfg0.win 2).blk t).view.emb (ix2 k q)) = _
  have e : ((cfg0.win 2).blk t).view.emb (ix2 k q) = ix2 k q := funext fun a => Fin.ext (by
    match a with
    | ⟨0, _⟩ => show win0_2.index t (0 : Fin 2) * 1024 + 1 * k.val = k.val; omega
    | ⟨1, _⟩ => show win0_2.index t (1 : Fin 2) * 1024 + 1 * q.val = q.val; omega)
  rw [e]
  exact first_weight_at m c k q

/-- The second staged weight's one block at `(k, q)` is `W[q, 1024 + k]`. -/
theorem wh_block (c : Dev nD) (t : Fin cfg0.N) (k q : Fin 1024) :
    iblk m c 3 t (ix2 k q) = argW m c (ix2 q (highCol k)) := by
  obtain ⟨-, -, -, -, -, -, e0, e1, -⟩ := index_facts t
  show V m c main_v5 (((cfg0.win 3).blk t).view.emb (ix2 k q)) = _
  have e : ((cfg0.win 3).blk t).view.emb (ix2 k q) = ix2 k q := funext fun a => Fin.ext (by
    match a with
    | ⟨0, _⟩ => show win0_3.index t (0 : Fin 2) * 1024 + 1 * k.val = k.val; omega
    | ⟨1, _⟩ => show win0_3.index t (1 : Fin 2) * 1024 + 1 * q.val = q.val; omega)
  rw [e]
  exact second_weight_at m c k q

/-- The staged bias row's one block at `(0, q)` is `b[q]`. -/
theorem bias_block (c : Dev nD) (t : Fin cfg0.N) (q : Fin 1024) :
    iblk m c 4 t (ix2 (0 : Fin 1) q) = argB m c (ix1 q) := by
  obtain ⟨-, -, -, -, -, -, -, -, e0, e1, -⟩ := index_facts t
  show V m c main_v6 (((cfg0.win 4).blk t).view.emb (ix2 (0 : Fin 1) q)) = _
  have e : ((cfg0.win 4).blk t).view.emb (ix2 (0 : Fin 1) q) = ix2 (0 : Fin 1) q := funext fun a => Fin.ext (by
    match a with
    | ⟨0, _⟩ => show win0_4.index t (0 : Fin 2) * 1 + 1 * 0 = 0; omega
    | ⟨1, _⟩ => show win0_4.index t (1 : Fin 2) * 1024 + 1 * q.val = q.val; omega)
  rw [e]
  exact bias_row_at m c q

/-! ## What a point writes back, the cover, the final array -/

/-- WHAT POINT `t` WRITES BACK is its block of the cell function of the four argument arrays. -/
theorem flushed_eq (c : Dev nD) (t : Fin cfg0.N) :
    (dats m 0 c).flushed 5 t
      = ((cfg0.win 5).blk t).view.read (Elt Ideal) (cell (argX m c) (argH m c) (argW m c) (argB m c)) := by
  rw [Value.flushed5]
  unfold out0_5
  rw [View.canon_unit_zero zero_offsets]
  simp only [View.ld_unit_zero (S := S1024x1024) zero_offsets, View.ld_unit_zero (S := S1x1024) zero_offsets]
  funext j
  obtain ⟨p, q, rfl⟩ : ∃ (p q : Fin 1024), j = ix2 p q := ⟨j 0, j 1, eq_ix2 j⟩
  show k0_pay1 (F := Ideal) (iblk m c 0 t) (iblk m c 1 t) (iblk m c 2 t) (iblk m c 3 t) (iblk m c 4 t) (ix2 p q)
    = cell (argX m c) (argH m c) (argW m c) (argB m c) (((cfg0.win 5).blk t).view.emb (ix2 p q))
  have e : ((cfg0.win 5).blk t).view.emb (ix2 p q) = ix2 (rowAt t p) q := funext fun a => Fin.ext (by
    have e1 := (index_facts t).2.2.2.2.2.2.2.2.2.2.1
    match a with
    | ⟨0, _⟩ => show win0_5.index t (0 : Fin 2) * 1024 + 1 * p.val = win0_5.index t (0 : Fin 2) * 1024 + p.val; omega
    | ⟨1, _⟩ => show win0_5.index t (1 : Fin 2) * 1024 + 1 * q.val = q.val; omega)
  rw [e]
  exact stored_is_cell (iblk m c 0 t) (iblk m c 1 t) (iblk m c 2 t) (iblk m c 3 t) (iblk m c 4 t)
    (argX m c) (argH m c) (argW m c) (argB m c) (rowAt t)
    (x_block m c t) (h_block m c t) (wx_block m c t) (wh_block m c t) (bias_block m c t) p q

/-- An index of the result array is in point `t`'s block iff each coordinate is in the block's range on its axis. -/
theorem mem_block (t : Fin cfg0.N) (i : S16384x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v7).slice (win0_5.rect t)).set ↔ _
  rw [View.set_slice_whole, Rect.mem_set_unit]
  exact Iff.rfl

/-- Every index of the result array is in some point's block: row `r` in the block of the point whose row block is
    `r / 1024`. -/
theorem covered (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  obtain ⟨t, ht⟩ := index_onto ⟨(i 0).val / 1024, by omega⟩
  have q0 : win0_5.index t (0 : Fin 2) = (i 0).val / 1024 := ht
  have q1 : win0_5.index t (1 : Fin 2) = 0 := (index_facts t).2.2.2.2.2.2.2.2.2.2.1
  refine ⟨t, flush0_5 t, ?_⟩
  rw [mem_block]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- THE RESULT ARRAY after the run is the cell function of the four argument arrays. -/
theorem final (c : Dev nD) :
    (dats m 0 c).arrAt 5 cfg0.N = cell (argX m c) (argH m c) (argW m c) (argB m c) :=
  (dats m 0 c).arrAt_eq_of_cover 5 (cell (argX m c) (argH m c) (argW m c) (argB m c)) (fun t _ => flushed_eq m c t) covered

/-- THE RUN: every weakly fair execution terminates with the result array at the cell function of the arguments as
    launched, and the arguments unchanged. -/
theorem run : θ_run defs (onTc (τ := τ) (main (F := Ideal))) ⟨m, fun _ => 0, ρ⟩ fun r => ∀ c : Dev nD,
      r.2.mem ((c : Thread nD τ).loc main_v7) = cell (argX m c) (argH m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.lean ====
/-
  A recurrent cell's update, `tanh([x, h] · Wᵀ + b)`, computed two ways.

  The kernel never joins `x` and `h`: it cuts the weight `W : [1024, 2048]` into its two column halves, multiplies a
  1024-row block of `x` with the first half and the same rows of `h` with the second, adds the two products, adds the bias
  and applies `tanh`, one 1024-row block per grid point. The reference joins `x` and `h` into rows of 2048 entries and
  takes one product with all of `W`. On extended reals the kernel's narrowing of its matrix operands to a shorter float
  format is the identity, so the two differ only in how one sum over 2048 columns is grouped: as one sum, or as the sum
  over the first 1024 columns plus the sum over the last 1024. Addition of extended reals is commutative and associative
  (it has conventions at `⊤ + ⊥`, but stays a commutative monoid), so the regrouping holds for all inputs and the
  precondition that inputs are finite is not used by the value argument.

  The modules: `CellSpec` states the common function and the regrouping law; `RefIsCell` reads the reference's run as that
  function; `BodyValue` reads the kernel body's stored block at an entry; `Staged` reads the arrays the region finds
  (the transposed weight halves, the bias row) back to `W` and `b`; `ArrayValue` goes from the blocks the 16 grid points
  write to the whole result array. Here the five claims are put together: the three frames (the two kernels' from their
  frame runs, the reference's from its run with the result dropped), the idealization's ledger (empty), and the equality
  of the two results.
-/
import proofs.«125307_j27049704030527_2_alg».proof.Defs
import proofs.«125307_j27049704030527_2_alg».proof.Proof.Gen.Kernel
import proofs.«125307_j27049704030527_2_alg».proof.Proof.Gen.Kernel.Skeleton
import proofs.«125307_j27049704030527_2_alg».proof.Proof.Gen.Kernel.Launch
import proofs.«125307_j27049704030527_2_alg».proof.Proof.Gen.Kernel.Points
import proofs.«125307_j27049704030527_2_alg».proof.Proof.Gen.Kernel.Frame
import proofs.«125307_j27049704030527_2_alg».proof.Proof.Gen.KernelIdeal
import proofs.«125307_j27049704030527_2_alg».proof.Proof.Gen.KernelIdeal.Skeleton
import proofs.«125307_j27049704030527_2_alg».proof.Proof.Gen.KernelIdeal.Launch
import proofs.«125307_j27049704030527_2_alg».proof.Proof.Gen.KernelIdeal.Points
import proofs.«125307_j27049704030527_2_alg».proof.Proof.Gen.KernelIdeal.Frame
import proofs.«125307_j27049704030527_2_alg».proof.Proof.Gen.ReferenceIdeal
import proofs.«125307_j27049704030527_2_alg».proof.Proof.Gen.Pre_finite_inputs
import proofs.«125307_j27049704030527_2_alg».proof.Proof.Gen.KernelIdeal.Value
import proofs.«125307_j27049704030527_2_alg».proof.Proof.Gen.ReferenceIdeal.Run
import proofs.«125307_j27049704030527_2_alg».proof.Proof.Gen.ReferenceIdeal.Read
import proofs.«125307_j27049704030527_2_alg».proof.Proof.CellSpec
import proofs.«125307_j27049704030527_2_alg».proof.Proof.RefIsCell
import proofs.«125307_j27049704030527_2_alg».proof.Proof.ArrayValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The idealized reference runs and leaves its arguments unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to restate. -/
theorem preserves : Cert.preserves_Kernel_KernelIdeal := trivial

/-- From memories that agree on the four arguments, both programs end with the result array at the cell function of the
    arguments: the kernel's by its blocks (`ArrayValue.run`), the reference's by its run read as that function
    (`ref_eq_cell`). -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq_cell,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
